-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S400000 : Shape := ⟨1, ![400000]⟩
abbrev S32x512 : Shape := ⟨2, ![32, 512]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32x512 .f32) (main_arg7 : FVec F S32 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S32x512 .f32 := Host.absf main_arg6
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S50000x64 .f32) (main_arg1 : FVec F S50000x64 .f32) (main_arg2 : FVec F S50000x64 .f32) (main_arg3 : FVec F S50000x64 .f32) (main_arg4 : IVec S400000 32) (main_arg5 : IVec S400000 32) (main_arg6 : FVec F S32x512 .f32) (main_arg7 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg6 main_arg7 main_v13 main_v16
-- ==== Kernel.lean ====
abbrev S50000x64 : Shape := ⟨2, ![50000, 64]⟩
abbrev S400000 : Shape := ⟨1, ![400000]⟩
abbrev S32x512 : Shape := ⟨2, ![32, 512]⟩
abbrev S32 : Shape := ⟨1, ![32]⟩
abbrev S32x256 : Shape := ⟨2, ![32, 256]⟩
abbrev S64x256 : Shape := ⟨2, ![64, 256]⟩
abbrev S256x64 : Shape := ⟨2, ![256, 64]⟩
abbrev S5000x64 : Shape := ⟨2, ![5000, 64]⟩
abbrev S5000x256 : Shape := ⟨2, ![5000, 256]⟩
abbrev S50000x32 : Shape := ⟨2, ![50000, 32]⟩
abbrev S_ : Shape := ⟨0, ![]⟩
abbrev S400000x1 : Shape := ⟨2, ![400000, 1]⟩
abbrev S400000x32 : Shape := ⟨2, ![400000, 32]⟩
abbrev S1x32 : Shape := ⟨2, ![1, 32]⟩

abbrev nBuf : Space → Nat
  | .hbm => 38
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S50000x64, .f32⟩
  | .hbm, ⟨4, _⟩ => ⟨S400000, .i32⟩
  | .hbm, ⟨5, _⟩ => ⟨S400000, .i32⟩
  | .hbm, ⟨6, _⟩ => ⟨S32x512, .f32⟩
  | .hbm, ⟨7, _⟩ => ⟨S32, .f32⟩
  | .hbm, ⟨8, _⟩ => ⟨S32x256, .f32⟩
  | .hbm, ⟨9, _⟩ => ⟨S32x256, .f32⟩
  | .hbm, ⟨10, _⟩ => ⟨S64x256, .f32⟩
  | .hbm, ⟨11, _⟩ => ⟨S256x64, .f32⟩
  | .hbm, ⟨12, _⟩ => ⟨S256x64, .bf16⟩
  | .hbm, ⟨13, _⟩ => ⟨S50000x64, .f32⟩
  | .hbm, ⟨14, _⟩ => ⟨S50000x32, .f32⟩
  | .hbm, ⟨15, _⟩ => ⟨S50000x32, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x32, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x32, .f32⟩
  | .hbm, ⟨34, _⟩ => ⟨S1x32, .f32⟩
  | .hbm, ⟨35, _⟩ => ⟨S400000x32, .f32⟩
  | .hbm, ⟨36, _⟩ => ⟨S400000x32, .f32⟩
  | .hbm, ⟨37, _⟩ => ⟨S400000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S256x64, .bf16⟩
  | .local _ .vmem, ⟨9, _⟩ => ⟨S5000x64, .f32⟩
  | .local _ .vmem, ⟨10, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S32x512_S32x256_0_0 : S32x512.Slices ![0, 0] S32x256
  slices_S32x512_S32x256_0_256 : S32x512.Slices ![0, 256] S32x256
  concatenates_S32x256_S32x256_S64x256_d0 : Shape.Concatenates [S32x256, S32x256] S64x256 0
  transposes_S64x256_S256x64_1_0 : S64x256.Transposes [1, 0] S256x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  concatenates_S5000x64_S5000x64_S5000x64_S5000x64_S5000x256_d1 : Shape.Concatenates [S5000x64, S5000x64, S5000x64, S5000x64] S5000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  slices_S50000x64_S50000x32_0_0 : S50000x64.Slices ![0, 0] S50000x32
  slices_S50000x64_S50000x32_0_32 : S50000x64.Slices ![0, 32] S50000x32
  bcast_S_S400000 : S_.BroadcastsInDim S400000 (![] : Fin 0 → Fin S400000.rank)
  bcast_S400000_S400000x1_0 : S400000.BroadcastsInDim S400000x1 (![0] : Fin 1 → Fin S400000x1.rank)
  shapeCasts_S32_S1x32 : S32.ShapeCasts S1x32
  bcast_S1x32_S400000x32_0_1 : S1x32.BroadcastsInDim S400000x32 (![0, 1] : Fin 2 → Fin S400000x32.rank)
  dot_S5000x256_S256x64_S5000x64_1_0_0_1_n_n_wf : DotDims.WF S5000x256 S256x64 S5000x64 [1] [0] [0] [1] [] []
  gather_S50000x32_S400000x1_S400000x32_1_0_n_n_0_1_132_wf : GatherDims.WF S50000x32 S400000x1 S400000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .bf16 = 32 ∨ (Rect.block (s := S256x64) S256x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x32_S400000x1_S400000x32_1_0_n_n_0_1_132 : GatherDims S50000x32 S400000x1 S400000x32 where
  offsetDims := [1]
  collapsedSliceDims := [0]
  operandBatchingDims := []
  startIndicesBatchingDims := []
  startIndexMap := [0]
  indexVectorDim := 1
  sliceSizes := ![1, 32]
  wf := gather_S50000x32_S400000x1_S400000x32_1_0_n_n_0_1_132_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S400000 : Shape := ⟨1, ![400000]⟩
abbrev S32x512 : Shape := ⟨2, ![32, 512]⟩
abbrev S32 : Shape := ⟨1, ![32]⟩
abbrev S_ : Shape := ⟨0, ![]⟩
abbrev S400000x1 : Shape := ⟨2, ![400000, 1]⟩
abbrev S400000x64 : Shape := ⟨2, ![400000, 64]⟩
abbrev S400000x512 : Shape := ⟨2, ![400000, 512]⟩
abbrev S512x32 : Shape := ⟨2, ![512, 32]⟩
abbrev S400000x32 : Shape := ⟨2, ![400000, 32]⟩
abbrev S1x32 : Shape := ⟨2, ![1, 32]⟩

abbrev nBuf : Space → Nat
  | .hbm => 86
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x64, .f32⟩
  | .hbm, ⟨3, _⟩ => ⟨S50000x64, .f32⟩
  | .hbm, ⟨4, _⟩ => ⟨S400000, .i32⟩
  | .hbm, ⟨5, _⟩ => ⟨S400000, .i32⟩
  | .hbm, ⟨6, _⟩ => ⟨S32x512, .f32⟩
  | .hbm, ⟨7, _⟩ => ⟨S32, .f32⟩
  | .hbm, ⟨8, _⟩ => ⟨S_, .i32⟩
  | .hbm, ⟨9, _⟩ => ⟨S400000, .i32⟩
  | .hbm, ⟨10, _⟩ => ⟨S400000, .i1⟩
  | .hbm, ⟨11, _⟩ => ⟨S_, .i32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000x1, .i32⟩
  | .hbm, ⟨16, _⟩ => ⟨S400000x64, .f32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x64, .f32⟩
  | .hbm, ⟨26, _⟩ => ⟨S_, .i32⟩
  | .hbm, ⟨27, _⟩ => ⟨S400000, .i32⟩
  | .hbm, ⟨28, _⟩ => ⟨S400000, .i1⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S400000, .i32⟩
  | .hbm, ⟨33, _⟩ => ⟨S400000x1, .i32⟩
  | .hbm, ⟨34, _⟩ => ⟨S400000x64, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000x64, .f32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S400000x64, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x64, .f32⟩
  | .hbm, ⟨62, _⟩ => ⟨S_, .i32⟩
  | .hbm, ⟨63, _⟩ => ⟨S400000, .i32⟩
  | .hbm, ⟨64, _⟩ => ⟨S400000, .i1⟩
  | .hbm, ⟨65, _⟩ => ⟨S_, .i32⟩
  | .hbm, ⟨66, _⟩ => ⟨S400000, .i32⟩
  | .hbm, ⟨67, _⟩ => ⟨S400000, .i32⟩
  | .hbm, ⟨68, _⟩ => ⟨S400000, .i32⟩
  | .hbm, ⟨69, _⟩ => ⟨S400000x1, .i32⟩
  | .hbm, ⟨70, _⟩ => ⟨S400000x64, .f32⟩
  | .hbm, ⟨71, _⟩ => ⟨S_, .i32⟩
  | .hbm, ⟨72, _⟩ => ⟨S400000, .i32⟩
  | .hbm, ⟨73, _⟩ => ⟨S400000, .i1⟩
  | .hbm, ⟨74, _⟩ => ⟨S_, .i32⟩
  | .hbm, ⟨75, _⟩ => ⟨S400000, .i32⟩
  | .hbm, ⟨76, _⟩ => ⟨S400000, .i32⟩
  | .hbm, ⟨77, _⟩ => ⟨S400000, .i32⟩
  | .hbm, ⟨78, _⟩ => ⟨S400000x1, .i32⟩
  | .hbm, ⟨79, _⟩ => ⟨S400000x64, .f32⟩
  | .hbm, ⟨80, _⟩ => ⟨S400000x512, .f32⟩
  | .hbm, ⟨81, _⟩ => ⟨S512x32, .f32⟩
  | .hbm, ⟨82, _⟩ => ⟨S400000x32, .f32⟩
  | .hbm, ⟨83, _⟩ => ⟨S1x32, .f32⟩
  | .hbm, ⟨84, _⟩ => ⟨S400000x32, .f32⟩
  | .hbm, ⟨85, _⟩ => ⟨S400000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_c_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_13 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x64_S400000x64_S400000x64_S400000x64_S400000x64_S400000x64_S400000x512_d1 : Shape.Concatenates [S400000x64, S400000x64, S400000x64, S400000x64, S400000x64, S400000x64, S400000x64, S400000x64] S400000x512 1
  transposes_S32x512_S512x32_1_0 : S32x512.Transposes [1, 0] S512x32
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  gather_S50000x64_S400000x1_S400000x64_1_0_n_n_0_1_164_wf : GatherDims.WF S50000x64 S400000x1 S400000x64 [1] [0] [] [0] [] 1 ![1, 64]
  dot_S400000x512_S512x32_S400000x32_1_0_0_1_n_n_wf : DotDims.WF S400000x512 S512x32 S400000x32 [1] [0] [0] [1] [] []

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x512_S512x32_S400000x32_1_0_0_1_n_n : DotDims S400000x512 S512x32 S400000x32 where
  lhsContracting := [1]
  rhsContracting := [0]
  lhsNonContracting := [0]
  rhsNonContracting := [1]
  lhsBatch := []
  rhsBatch := []
  wf := dot_S400000x512_S512x32_S400000x32_1_0_0_1_n_n_wf

class Facts : Prop extends Facts₀ where

variable [Facts]
-- ==== Proof.ColumnBlocks.lean ====
/-
  A contracted axis cut into consecutive blocks of columns.

  A sum over `m * n` consecutive columns is the sum, over the `m` blocks of `n` columns, of each block's sum:
  column `n * q + l` is column `l` of block `q`. Addition is only regrouped, so the identity holds in every
  commutative additive monoid — on the extended reals it needs no finiteness.
  The two instances used here: 256 columns as 4 blocks of 64 (the four node-feature slices laid side by side), and
  512 columns as two halves of 256 (the source half and the destination half of an edge's feature row), each half
  4 blocks of 64.
-/
import Mathlib.Algebra.BigOperators.Fin
import Mathlib.Logic.Equiv.Fin.Basic

namespace Cert.EdgeScores

/-- Column `l` of block `q` among 256 columns cut into 4 blocks of 64. -/
def col (q : Fin 4) (l : Fin 64) : Fin 256 := ⟨64 * q.val + l.val, by omega⟩

/-- Column `l` of block `q` of half `h` among 512 columns: two halves of 256 columns, each 4 blocks of 64. -/
def wcol (h : Fin 2) (q : Fin 4) (l : Fin 64) : Fin 512 := ⟨256 * h.val + (64 * q.val + l.val), by omega⟩

/-- Column `c` of half `h` among the 64 output columns: the 32 source-side classes, then the 32 destination-side classes. -/
def ocol (h : Fin 2) (c : Fin 32) : Fin 64 := ⟨32 * h.val + c.val, by omega⟩

@[simp] theorem ocol_val (h : Fin 2) (c : Fin 32) : (ocol h c).val = 32 * h.val + c.val := rfl
@[simp] theorem col_val (q : Fin 4) (l : Fin 64) : (col q l).val = 64 * q.val + l.val := rfl
@[simp] theorem wcol_val (h : Fin 2) (q : Fin 4) (l : Fin 64) : (wcol h q l).val = 256 * h.val + (64 * q.val + l.val) := rfl

/-- A sum over `m * n` columns, block by block. -/
theorem sum_blocks {M : Type*} [AddCommMonoid M] (m n : ℕ) (f : Fin (m * n) → M) :
    ∑ k, f k = ∑ q : Fin m, ∑ l : Fin n, f (finProdFinEquiv (q, l)) := by
  rw [← Equiv.sum_comp finProdFinEquiv f, Fintype.sum_prod_type]

/-- A sum over 256 columns as 4 blocks of 64. -/
theorem sum_256 {M : Type*} [AddCommMonoid M] (f : Fin 256 → M) :
    ∑ k, f k = ∑ q : Fin 4, ∑ l : Fin 64, f (col q l) := by
  refine (sum_blocks 4 64 f).trans ?_
  refine Finset.sum_congr rfl fun q _ => Finset.sum_congr rfl fun l _ => congrArg f (Fin.ext ?_)
  show l.val + 64 * q.val = 64 * q.val + l.val
  omega

/-- A sum over 512 columns as its first 256 and its last 256, each 4 blocks of 64. -/
theorem sum_512 {M : Type*} [AddCommMonoid M] (f : Fin 512 → M) :
    ∑ k, f k = (∑ q : Fin 4, ∑ l : Fin 64, f (wcol 0 q l)) + ∑ q : Fin 4, ∑ l : Fin 64, f (wcol 1 q l) := by
  refine (Fin.sum_univ_add (a := 256) (b := 256) f).trans ?_
  rw [sum_256 fun i => f (Fin.castAdd 256 i), sum_256 fun i => f (Fin.natAdd 256 i)]
  congr 1

end Cert.EdgeScores
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.KernelBody.lean ====
/-
  The kernel body's one stored value, read at an entry.

  The body loads a 5000-row block of each of the four node-feature slices and the whole stacked weight matrix
  `[256, 64]`, lays the four blocks side by side into `[5000, 256]` and multiplies: entry `(p, j)` of what it stores is

    Σ_k (x0 | x1 | x2 | x3) (p, k) · w (k, j),   k over the 256 columns.

  The changes of float format (to bf16 before the product) are the identity on extended reals. Column `64 q + l`
  of the side-by-side matrix is column `l` of slice `q`, so cut into the four blocks of 64 columns the entry is

    Σ_q Σ_l x_q (p, l) · w (64 q + l, j).
-/
import proofs.«144986_j90366111908223_2_alg».proof.Proof.Gen.KernelIdeal.Skeleton
import Idealize.ShloMosaic.Lib.Pipeline.Value
import Idealize.ShloMosaic.Lib.ValueIdx
import proofs.«144986_j90366111908223_2_alg».proof.Proof.ColumnBlocks
import proofs.«144986_j90366111908223_2_alg».proof.Proof.LibPlainMatmul

noncomputable section

namespace Cert.KernelIdeal.Body

open Idealize.ShloMosaic Idealize.ShloMosaic.ValueIdx Cert.KernelIdeal Cert.KernelIdeal.Gen Cert.EdgeScores

/-- Four `[5000, 64]` matrices side by side: column `64 q + l` of the result is column `l` of matrix `q`. -/
theorem sideBySide_apply {α : Type} (x : Fin 4 → (S5000x64.Idx → α))
    (h : Shape.Concatenates ([⟨S5000x64, x 0⟩, ⟨S5000x64, x 1⟩, ⟨S5000x64, x 2⟩, ⟨S5000x64, x 3⟩].map
      (fun p : (s : Shape) × (s.Idx → α) => p.1)) S5000x256 1)
    (p : Fin 5000) (q : Fin 4) (l : Fin 64) :
    concatenate S5000x256 1 [⟨S5000x64, x 0⟩, ⟨S5000x64, x 1⟩, ⟨S5000x64, x 2⟩, ⟨S5000x64, x 3⟩] h (ix2 p (col q l))
      = x q (ix2 p l) :=
  concatenate_ofFn_apply (t := S5000x256) (s₁ := S5000x64) (1 : Fin 2) x h rfl 64 rfl (ix2 p (col q l)) q
    (by show (64 * q.val + l.val) / 64 = q.val; omega)
    (ix2 p l) (by show l.val = (64 * q.val + l.val) % 64; omega)
    (fun b hb => match b, hb with
      | ⟨0, _⟩, _ => rfl
      | ⟨1, _⟩, hb => absurd rfl hb)

/-- The stored value at `(p, j)`: over the four blocks of 64 columns, slice `q`'s row `p` against rows
    `64 q … 64 q + 63` of the stacked weights. -/
theorem payload_apply (x0 x1 x2 x3 : Vec Ideal S5000x64 .f32) (x4 : Vec Ideal S256x64 .bf16) (p : Fin 5000) (j : Fin 64) :
    k0_pay1 (F := Ideal) x0 x1 x2 x3 x4 (ix2 p j)
      = ∑ q : Fin 4, ∑ l : Fin 64,
          (![x0, x1, x2, x3] : Fin 4 → Vec Ideal S5000x64 .f32) q (ix2 p l) * x4 (ix2 (col q l) j) := by
  unfold k0_pay1
  refine (Cert.Lib.PlainMatmul.matmul_zero_apply (M := 5000) (K := 256) (N := 64)
    dot_S5000x256_S256x64_S5000x64_1_0_0_1_n_n rfl rfl rfl rfl rfl rfl none _ _ p j).trans ?_
  refine (sum_256 _).trans ?_
  refine Finset.sum_congr rfl fun q _ => Finset.sum_congr rfl fun l _ => ?_
  refine congrArg₂ (· * ·) ?_ ?_
  · exact sideBySide_apply (![x0, x1, x2, x3] : Fin 4 → Vec Ideal S5000x64 .f32) _ p q l
  · exact congrFun (shapeCast_self x4 _) _

end Cert.KernelIdeal.Body

end
-- ==== Proof.KernelWeights.lean ====
/-
  The stacked weight matrix the kernel is launched with, read at an entry.

  Before the launch the host cuts `W : [32, 512]` into its source half (columns 0 … 255) and its destination half
  (columns 256 … 511), stacks the two halves into `[64, 256]`, transposes to `[256, 64]` and changes the float format
  (the identity on extended reals). So column `32 h + c` of the result holds half `h` of row `c` of `W`:

    stacked W (k, 32 h + c) = W (c, 256 h + k).
-/
import proofs.«144986_j90366111908223_2_alg».proof.Proof.Gen.KernelIdeal
import Idealize.ShloMosaic.Lib.Pipeline.Value
import Idealize.ShloMosaic.Lib.ValueIdx
import proofs.«144986_j90366111908223_2_alg».proof.Proof.ColumnBlocks

noncomputable section

namespace Cert.KernelIdeal.Weights

open Idealize.ShloMosaic Idealize.ShloMosaic.ValueIdx Cert.KernelIdeal Cert.EdgeScores
open Cert.KernelIdeal.Facts₀

/-- The host's five operations on `W` before the launch, as one term. -/
def stacked (W : FVec Ideal S32x512 .f32) : FVec Ideal S256x64 .bf16 :=
  truncf .bf16 (transpose S256x64 [1, 0] (concatenate S64x256 0
    [⟨S32x256, extractStridedSlice S32x256 ![0, 0] W slices_S32x512_S32x256_0_0⟩,
     ⟨S32x256, extractStridedSlice S32x256 ![0, 256] W slices_S32x512_S32x256_0_256⟩]
    concatenates_S32x256_S32x256_S64x256_d0) transposes_S64x256_S256x64_1_0) bitsLt_bf16_f32

/-- Row `64 q + l`, column `32 h + c` of the stacked matrix is `W` at row `c`, column `256 h + 64 q + l`. -/
theorem stacked_apply (W : FVec Ideal S32x512 .f32) (h : Fin 2) (q : Fin 4) (l : Fin 64) (c : Fin 32) :
    stacked W (ix2 (col q l) (ocol h c)) = W (ix2 c (wcol h q l)) := by
  unfold stacked
  refine (truncf_apply _ bitsLt_bf16_f32 _).trans ?_
  refine (transpose_apply [1, 0] _ transposes_S64x256_S256x64_1_0 (ix2 (col q l) (ocol h c))
    (ix2 (ocol h c) (col q l)) (fun b => match b with | ⟨0, _⟩ => rfl | ⟨1, _⟩ => rfl)).trans ?_
  refine (concatenate_ofFn_apply (t := S64x256) (s₁ := S32x256) (0 : Fin 2)
    (![extractStridedSlice S32x256 ![0, 0] W slices_S32x512_S32x256_0_0,
       extractStridedSlice S32x256 ![0, 256] W slices_S32x512_S32x256_0_256] : Fin 2 → (S32x256.Idx → EReal))
    concatenates_S32x256_S32x256_S64x256_d0 rfl 32 rfl (ix2 (ocol h c) (col q l)) h
    (by show (32 * h.val + c.val) / 32 = h.val; omega)
    (ix2 c (col q l)) (by show c.val = (32 * h.val + c.val) % 32; omega)
    (fun b hb => match b, hb with
      | ⟨0, _⟩, hb => absurd rfl hb
      | ⟨1, _⟩, _ => rfl)).trans ?_
  match h with
  | ⟨0, _⟩ =>
    exact extractStridedSlice_apply ![0, 0] W slices_S32x512_S32x256_0_0 (ix2 c (col q l)) (ix2 c (wcol 0 q l))
      (fun a => match a with
        | ⟨0, _⟩ => by show c.val = 0 + c.val; omega
        | ⟨1, _⟩ => by show 256 * 0 + (64 * q.val + l.val) = 0 + (64 * q.val + l.val); omega)
  | ⟨1, _⟩ =>
    exact extractStridedSlice_apply ![0, 256] W slices_S32x512_S32x256_0_256 (ix2 c (col q l)) (ix2 c (wcol 1 q l))
      (fun a => match a with
        | ⟨0, _⟩ => by show c.val = 0 + c.val; omega
        | ⟨1, _⟩ => by show 256 * 1 + (64 * q.val + l.val) = 256 + (64 * q.val + l.val); omega)

end Cert.KernelIdeal.Weights

end
-- ==== Proof.KernelArray.lean ====
/-
  The per-node array the kernel leaves in its output window.

  The grid has ten points; point `t` reads rows `5000 t … 5000 t + 4999` of each of the four node-feature slices and
  the whole stacked weight matrix, and writes back rows `5000 t … 5000 t + 4999` of the output `[50000, 64]`. Each
  written block is the same function of the arrays, read at the block's own rows,

    nodeProj S w (n, j) = Σ_q Σ_l S q (n, l) · w (64 q + l, j),

  and the ten blocks tile the output (row `n` is in block `n / 5000`), so after the run the output array is
  `nodeProj` of the slices and the stacked weights as the launch finds them.
-/
import proofs.«144986_j90366111908223_2_alg».proof.Proof.Gen.KernelIdeal.Frame
import Idealize.ShloMosaic.Lib.Pipeline.Value
import proofs.«144986_j90366111908223_2_alg».proof.Proof.KernelBody
import proofs.«144986_j90366111908223_2_alg».proof.Proof.KernelWeights

set_option maxRecDepth 16384

noncomputable section

namespace Cert.KernelIdeal.NodeArray

open Idealize.ShloMosaic Idealize.ShloMosaic.TcCoe Idealize.ShloMosaic.ValueIdx Idealize.SL.Sem
open Cert.KernelIdeal Cert.KernelIdeal.Gen Cert.EdgeScores
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Every node's 256 features against every column of a `[256, 64]` matrix. -/
def nodeProj (S : Fin 4 → FVec Ideal S50000x64 .f32) (w : FVec Ideal S256x64 .bf16) : FVec Ideal S50000x64 .f32 :=
  fun i => ∑ q : Fin 4, ∑ l : Fin 64, S q (ix2 (i 0) l) * w (ix2 (col q l) (i 1))

/-- The four node-feature slices as the launch finds them. -/
def slices (c : Dev nD) : Fin 4 → FVec Ideal S50000x64 .f32 :=
  ![V m c main_arg0, V m c main_arg1, V m c main_arg2, V m c main_arg3]

/-- The block indices over the grid: every slice's block moves with the output's block down the rows, no window moves
    along the columns, and the stacked weights stay in place. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = win0_5.index t (0 : Fin 2) ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of `nodeProj` of the arrays as the launch finds them. -/
theorem flushed_eq (c : Dev nD) (t : Fin cfg0.N) :
    (dats m 0 c).flushed 5 t
      = ((cfg0.win 5).blk t).view.read (Elt Ideal) (nodeProj (slices m c) (V m c main_v4)) := by
  show (cfg0.win 5).cut (grid0.coords t) ((dats m 0 c).after 5 t) = _
  rw [after0_5]
  unfold out0_5
  rw [View.canon_unit_zero hz]
  simp only [View.ld_unit_zero (S := S5000x64) hz, View.ld_unit_zero (S := S256x64) hz]
  obtain ⟨e00, e01, e10, e11, e20, e21, e30, e31, e40, e41, e51, -⟩ := idx_facts t
  funext j
  show k0_pay1 (F := Ideal) (iblk m c 0 t) (iblk m c 1 t) (iblk m c 2 t) (iblk m c 3 t) (iblk m c 4 t) j
    = nodeProj (slices m c) (V m c main_v4) (((cfg0.win 5).blk t).view.emb j)
  refine ((congrArg (k0_pay1 (F := Ideal) (iblk m c 0 t) (iblk m c 1 t) (iblk m c 2 t) (iblk m c 3 t) (iblk m c 4 t))
    (eq_ix2 (n0 := 5000) (n1 := 64) j)).trans
    (Body.payload_apply (iblk m c 0 t) (iblk m c 1 t) (iblk m c 2 t) (iblk m c 3 t) (iblk m c 4 t) (j 0) (j 1))).trans ?_
  unfold nodeProj
  refine Finset.sum_congr rfl fun q _ => Finset.sum_congr rfl fun l _ => ?_
  refine congrArg₂ (· * ·) ?_ ?_
  · -- slice `q`'s block at the point reads the slice at the output block's own rows
    match q with
    | ⟨0, _⟩ =>
      show V m c main_arg0 (((cfg0.win 0).blk t).view.emb (ix2 (j 0) l))
        = V m c main_arg0 (ix2 (((cfg0.win 5).blk t).view.emb j 0) l)
      refine congrArg (V m c main_arg0) (funext fun a => Fin.ext ?_)
      match a with
      | ⟨0, _⟩ =>
        show win0_0.index t (0 : Fin 2) * 5000 + 1 * (j 0).val = win0_5.index t (0 : Fin 2) * 5000 + 1 * (j 0).val
        omega
      | ⟨1, _⟩ =>
        show win0_0.index t (1 : Fin 2) * 64 + 1 * l.val = l.val
        omega
    | ⟨1, _⟩ =>
      show V m c main_arg1 (((cfg0.win 1).blk t).view.emb (ix2 (j 0) l))
        = V m c main_arg1 (ix2 (((cfg0.win 5).blk t).view.emb j 0) l)
      refine congrArg (V m c main_arg1) (funext fun a => Fin.ext ?_)
      match a with
      | ⟨0, _⟩ =>
        show win0_1.index t (0 : Fin 2) * 5000 + 1 * (j 0).val = win0_5.index t (0 : Fin 2) * 5000 + 1 * (j 0).val
        omega
      | ⟨1, _⟩ =>
        show win0_1.index t (1 : Fin 2) * 64 + 1 * l.val = l.val
        omega
    | ⟨2, _⟩ =>
      show V m c main_arg2 (((cfg0.win 2).blk t).view.emb (ix2 (j 0) l))
        = V m c main_arg2 (ix2 (((cfg0.win 5).blk t).view.emb j 0) l)
      refine congrArg (V m c main_arg2) (funext fun a => Fin.ext ?_)
      match a with
      | ⟨0, _⟩ =>
        show win0_2.index t (0 : Fin 2) * 5000 + 1 * (j 0).val = win0_5.index t (0 : Fin 2) * 5000 + 1 * (j 0).val
        omega
      | ⟨1, _⟩ =>
        show win0_2.index t (1 : Fin 2) * 64 + 1 * l.val = l.val
        omega
    | ⟨3, _⟩ =>
      show V m c main_arg3 (((cfg0.win 3).blk t).view.emb (ix2 (j 0) l))
        = V m c main_arg3 (ix2 (((cfg0.win 5).blk t).view.emb j 0) l)
      refine congrArg (V m c main_arg3) (funext fun a => Fin.ext ?_)
      match a with
      | ⟨0, _⟩ =>
        show win0_3.index t (0 : Fin 2) * 5000 + 1 * (j 0).val = win0_5.index t (0 : Fin 2) * 5000 + 1 * (j 0).val
        omega
      | ⟨1, _⟩ =>
        show win0_3.index t (1 : Fin 2) * 64 + 1 * l.val = l.val
        omega
  · -- the stacked weights are one block, the same at every point
    show V m c main_v4 (((cfg0.win 4).blk t).view.emb (ix2 (col q l) (j 1)))
      = V m c main_v4 (ix2 (col q l) (((cfg0.win 5).blk t).view.emb j 1))
    refine congrArg (V m c main_v4) (funext fun a => Fin.ext ?_)
    match a with
    | ⟨0, _⟩ =>
      show win0_4.index t (0 : Fin 2) * 256 + 1 * (col q l).val = (col q l).val
      omega
    | ⟨1, _⟩ =>
      show win0_4.index t (1 : Fin 2) * 64 + 1 * (j 1).val = win0_5.index t (1 : Fin 2) * 64 + 1 * (j 1).val
      omega

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v5).slice (win0_5.rect t)).set ↔ _
  rw [View.set_slice_whole, Rect.mem_set_unit]
  exact Iff.rfl

/-- The ten blocks tile the output: row `n` is in the block of point `n / 5000`. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The output array after the run. -/
theorem final (c : Dev nD) : (dats m 0 c).arrAt 5 cfg0.N = nodeProj (slices m c) (V m c main_v4) :=
  (dats m 0 c).arrAt_eq_of_cover 5 _ (fun t _ => flushed_eq m c t) cover

/-- The launch finds the four slices as the program was started with them. -/
theorem slices_eq (c : Dev nD) :
    slices m c = ![m ((c : Thread nD τ).loc main_arg0), m ((c : Thread nD τ).loc main_arg1),
      m ((c : Thread nD τ).loc main_arg2), m ((c : Thread nD τ).loc main_arg3)] := by
  unfold slices
  rw [V_main_arg0, V_main_arg1, V_main_arg2, V_main_arg3]

/-- The launch finds the stacked weights of the argument `W`: the five host operations before it. -/
theorem V_weights (c : Dev nD) :
    (V m c main_v4 : S256x64.Idx → EReal) = Weights.stacked (m ((c : Thread nD τ).loc main_arg6)) := by
  show StableHlo.after hostOps0 (fun b => m (c, b)) (Proc.devRef .tc main_v4) = _
  after_results
  rfl

end Cert.KernelIdeal.NodeArray

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibGraphRows.lean ====
/-
  GATHER AND SCATTER-ADD ALONG THE ROWS OF A MATRIX, READ AT COORDINATES, and the one law of a graph convolution.

  A row gather `x[idx]` of a matrix `[N, C]` (or of a vector `[N]`) at `E` start indices held as a column `[E, 1]` reads,
  for edge `e`, row `clampRow (idx (e, 0))`: the start index read as a signed integer and clamped into `[0, N - 1]`.
  A scatter-add of `E` update rows into the rows of `[N, C]` sends update `(e, c)` to `(idx (e, 0), c)` when the start
  index, read signed and NOT clamped, is a row of the matrix, and drops it otherwise. So an update that lands in row
  `r` has start index exactly `r`, which is a fixed point of jnp's negative-index wrap and of the gather's clamp: the
  degree normalisation gathered at the destination of an edge that lands in row `r` is the normalisation of row `r`.
  That is what lets the factor `dinv r` out of the sum over the edges into `r` — a finite nonnegative factor comes out
  of any finite sum of extended reals (`scaled_sum`); `dinv` is `rsqrt` of a positive degree, or zero.

  Every statement takes the dimension numbers by their lists, so that any printed record with these lists unifies.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«144986_j90366111908223_2_alg».proof.Proof.LibSoftmaxRow

namespace Cert.Lib.GraphRows

open Idealize.ShloMosaic Idealize.ShloMosaic.ValueIdx

/-- The row a start index selects in a gather: read signed, clamped into `[0, N - 1]`. -/
def clampRow {N w : ℕ} (hN : 0 < N) (b : BitVec w) : Fin N := ⟨min b.toInt.toNat (N - 1), by omega⟩

/-- A start index that IS a row (read signed) is the row the gather selects. -/
theorem clampRow_of_toInt {N w : ℕ} (hN : 0 < N) (b : BitVec w) (r : Fin N) (h : b.toInt = (r.val : ℤ)) :
    clampRow hN b = r := by
  apply Fin.ext
  show min b.toInt.toNat (N - 1) = r.val
  rw [h, Int.toNat_natCast]
  have := r.isLt
  omega

/-! ## Row gathers -/

set_option backward.isDefEq.respectTransparency.types false in
/-- A row gather of a matrix `[N, C]` at start indices `[E, 1]`: result `(e, c)` reads the operand at
    `(clampRow (idx (e, 0)), c)`. -/
theorem gatherRows_operandIdx {N E C w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (clampRow hN (idx (ix2 e (0 : Fin 1)))) c := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).2 ⟨show ¬ (1 : Fin 2) ∈ [(0 : Fin 2)] by decide, List.not_mem_nil⟩)]
    simp only [Nat.zero_add]
    rfl

set_option backward.isDefEq.respectTransparency.types false in
/-- A gather of a vector `[N]` at start indices `[E, 1]`: result `e` reads the operand at `clampRow (idx (e, 0))`. -/
theorem gatherVec_operandIdx {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow hN (idx (ix2 e (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ : GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter -/

/-- The row scatter's dimension numbers as a literal record. -/
private abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
private theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : ℤ) ∧ (i 1).val = c.val := by
  have hs0 : (rowScatter N E C wf).start (ix2 e c) idx 0 = (idx (ix2 e (0 : Fin 1))).toInt := by
    unfold ScatterDims.start
    rw [dif_pos (List.mem_singleton.mpr rfl)]
    have hsi : (rowScatter N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E C wf).window (ix2 e c) 0 = 0 := by
    unfold ScatterDims.window
    rw [dif_neg (by simp [ScatterDims.sKept, Shape.kept])]
  have hs1 : (rowScatter N E C wf).start (ix2 e c) idx 1 = 0 := by
    unfold ScatterDims.start
    rw [dif_neg (show ¬ (1 : Fin 2) ∈ [(0 : Fin 2)] by decide)]
  have hw1 : (rowScatter N E C wf).window (ix2 e c) 1 = c.val := by
    unfold ScatterDims.window
    rw [dif_pos (by simp [ScatterDims.sKept, Shape.kept])]
    rfl
  unfold ScatterDims.resultIdx? at h
  split at h
  · rename_i hb
    have hi := Option.some.inj h
    have e0 : ((rowScatter N E C wf).start (ix2 e c) idx 0 + ((rowScatter N E C wf).window (ix2 e c) 0 : ℕ)).toNat = (i 0).val :=
      congrArg Fin.val (congrFun hi 0)
    have e1 : ((rowScatter N E C wf).start (ix2 e c) idx 1 + ((rowScatter N E C wf).window (ix2 e c) 1 : ℕ)).toNat = (i 1).val :=
      congrArg Fin.val (congrFun hi 1)
    have hb0 := (hb 0).1
    rw [hs0, hw0] at e0 hb0
    rw [hs1, hw1] at e1
    simp only [Nat.cast_zero, add_zero] at e0 hb0
    constructor
    · rw [← e0]; exact (Int.toNat_of_nonneg hb0).symm
    · rw [← e1]; simp
  · exact absurd h (by simp)

/-- A row scatter into `[N, C]` at scatter indices `[E, 1]`: update `(e, c)` lands at `i` only if its start index, read
    signed, is the row of `i`, and then in column `c`. -/
theorem scatterRows_lands {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C)
    (i : (⟨2, ![N, C]⟩ : Shape).Idx) (h : d.resultIdx? (ix2 e c) idx = some i) :
    (idx (ix2 e (0 : Fin 1))).toInt = ((i 0).val : ℤ) ∧ (i 1).val = c.val := by
  obtain ⟨uw, iw, sd, iv, wf⟩ := d
  dsimp only at h1 h2 h3 h4
  subst h1 h2 h3 h4
  exact rowScatter_lands wf idx e c i h

/-! ## A gather, a scatter-add and a splat constant read at an index (by definition, stated once for abstract shapes) -/

/-- A gather reads the operand at the gather's operand index. -/
theorem gather_apply {α : Type} {s si t : Shape} {w : ℕ} (d : GatherDims s si t) (x : s.Idx → α) (idx : IVec si w)
    (j : t.Idx) : Host.gather d x idx j = x (d.operandIdx j idx) := rfl

/-- On the extended reals a scatter-add is the operand's element plus the sum of the updates that land on it. -/
theorem scatterAdd_apply {s si su : Shape} {φ : FTy} {w : ℕ} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A scalar constant broadcast to any shape reads the constant. -/
theorem splat_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- A gathered array widened to another float format reads the operand at the gather's operand index. -/
theorem extf_gather_apply {s si t : Shape} {φ ψ : FTy} {w : ℕ} (d : GatherDims s si t) (x : FVec Ideal s φ)
    (idx : IVec si w) (hb : φ.bits < ψ.bits) (j : t.Idx) :
    extf ψ (Host.gather d x idx) hb j = x (d.operandIdx j idx) := rfl

/-- A gathered array times another, elementwise. -/
theorem mulf_gather_apply {s si t : Shape} {φ : FTy} {w : ℕ} (d : GatherDims s si t) (x : FVec Ideal s φ)
    (idx : IVec si w) (y : FVec Ideal t φ) (j : t.Idx) :
    mulf (Host.gather d x idx) y j = x (d.operandIdx j idx) * y j := rfl

/-! ## jnp's wrap of a negative index -/

/-- `where(v < z, v + n, v)` with `z` the zero word leaves a nonnegative index as it is. -/
theorem wrap_of_nonneg {w : ℕ} (v z n : BitVec w) (hz : z.toInt = 0) (h : 0 ≤ v.toInt) :
    Scalar.select (IntOp.cmpi .slt v z) (IntOp.addi v n) v = v := by
  have : IntOp.cmpi .slt v z = 0#1 := by
    show BitVec.ofBool (v.slt z) = 0#1
    have hs : v.slt z = false := by
      rw [BitVec.slt_eq_decide, hz]
      exact decide_eq_false (not_lt.mpr h)
    rw [hs]; rfl
  rw [this]
  exact select_zero _ _

/-! ## The normalisation factor and the law -/

/-- `where(deg > 0, rsqrt deg, 0)` is a finite nonnegative number, whatever `deg` is. -/
theorem dinv_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl _, EReal.zero_ne_top⟩

/-- THE LAW: a sum of messages `a j * s j` scaled afterwards by a finite nonnegative `c` is the sum of the messages each
    scaled by `s j * t j`, when `t j = c` on the summed set. (Both sums start from the zero the scatter adds into.) -/
theorem scaled_sum {ι : Type*} (L : Finset ι) (a s t : ι → EReal) (c : EReal) (h0 : 0 ≤ c) (ht : c ≠ ⊤)
    (hc : ∀ j ∈ L, t j = c) :
    (0 + ∑ j ∈ L, a j * s j) * c = 0 + ∑ j ∈ L, a j * (s j * t j) := by
  rw [zero_add, zero_add, Cert.Lib.SoftmaxRow.sum_mul_of_nonneg_of_ne_top _ _ h0 ht]
  exact Finset.sum_congr rfl fun j hj => by rw [hc j hj, mul_assoc]

/-! ## One graph convolution, both ways -/

set_option backward.isDefEq.respectTransparency.types false in
/-- A GRAPH CONVOLUTION AT NODE `r`, COLUMN `q`. With `h` the dense transform `[N, C]`, `dinv` the normalisation of the
    nodes, `srcI` / `dstNI` the wrapped source and destination start indices the gathers read and `dstI` the raw
    destination indices the scatter reads: summing into `(r, q)` the rows of `h` ALREADY SCALED by `dinv` of their own node
    and scaling the sum by `dinv r` afterwards is summing the rows of `h` each times
    `norm e = dinv[src e] * dinv[dst e]` — because an edge that lands in row `r` has destination `r`, a fixed point of
    the wrap (`hwrap`) and of the gather's clamp. -/
theorem conv_at {N E C w : ℕ} (hN : 0 < N)
    (sc : ScatterDims ⟨2, ![N, C]⟩ ⟨2, ![E, 1]⟩ ⟨2, ![E, C]⟩)
    (s1 : sc.updateWindowDims = [1]) (s2 : sc.insertedWindowDims = [0]) (s3 : sc.scatterDimsToOperandDims = [0])
    (s4 : sc.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (dinv : (⟨1, ![N]⟩ : Shape).Idx → EReal) (hd : ∀ i, 0 ≤ dinv i ∧ dinv i ≠ ⊤)
    (h : (⟨2, ![N, C]⟩ : Shape).Idx → EReal)
    (srcI dstI dstNI : IVec ⟨2, ![E, 1]⟩ w)
    (hwrap : ∀ e : Fin E, 0 ≤ (dstI (ix2 e (0 : Fin 1))).toInt → dstNI (ix2 e (0 : Fin 1)) = dstI (ix2 e (0 : Fin 1)))
    (r : Fin N) (q : Fin C) :
    (0 + ∑ j ∈ Finset.univ.filter (fun j => sc.resultIdx? j dstI = some (ix2 r q)),
        (h (g.operandIdx j srcI) * dinv (ix1 ((g.operandIdx j srcI) 0)))) * dinv (ix1 r)
      = 0 + ∑ j ∈ Finset.univ.filter (fun j => sc.resultIdx? j dstI = some (ix2 r q)),
          h (g.operandIdx j srcI)
            * (dinv (gv.operandIdx (ix1 (j 0)) srcI) * dinv (gv.operandIdx (ix1 (j 0)) dstNI)) := by
  have key := scaled_sum (Finset.univ.filter (fun j => sc.resultIdx? j dstI = some (ix2 r q)))
    (fun j => h (g.operandIdx j srcI)) (fun j => dinv (ix1 ((g.operandIdx j srcI) 0)))
    (fun j => dinv (gv.operandIdx (ix1 (j 0)) dstNI)) (dinv (ix1 r)) (hd _).1 (hd _).2 (by
      intro j hj
      have hl := (Finset.mem_filter.mp hj).2
      rw [eq_ix2 j] at hl
      obtain ⟨hrow, -⟩ := scatterRows_lands sc s1 s2 s3 s4 dstI (j 0) (j 1) (ix2 r q) hl
      have hrow' : (dstI (ix2 (j 0) (0 : Fin 1))).toInt = (r.val : ℤ) := hrow
      have hnn : 0 ≤ (dstI (ix2 (j 0) (0 : Fin 1))).toInt := by rw [hrow']; exact Int.natCast_nonneg _
      show dinv (gv.operandIdx (ix1 (j 0)) dstNI) = dinv (ix1 r)
      rw [gatherVec_operandIdx hN gv v1 v2 v3 v4 v5 v6 v7 dstNI (j 0), hwrap (j 0) hnn,
        clampRow_of_toInt hN _ r hrow'])
  refine key.trans ?_
  refine congrArg (0 + ·) (Finset.sum_congr rfl fun j _ => ?_)
  show h (g.operandIdx j srcI) * (dinv (ix1 ((g.operandIdx j srcI) 0)) * dinv (gv.operandIdx (ix1 (j 0)) dstNI)) = _
  have e0 : g.operandIdx j srcI = ix2 (clampRow hN (srcI (ix2 (j 0) (0 : Fin 1)))) (j 1) :=
    (congrArg (fun j' => g.operandIdx j' srcI) (eq_ix2 j)).trans
      (gatherRows_operandIdx hN g g1 g2 g3 g4 g5 g6 g7 srcI (j 0) (j 1))
  have e1 : ix1 ((g.operandIdx j srcI) 0) = gv.operandIdx (ix1 (j 0)) srcI :=
    (congrArg (fun z : (⟨2, ![N, C]⟩ : Shape).Idx => ix1 (z 0)) e0).trans
      (gatherVec_operandIdx hN gv v1 v2 v3 v4 v5 v6 v7 srcI (j 0)).symm
  exact congrArg (fun z => h (g.operandIdx j srcI) * (dinv z * dinv (gv.operandIdx (ix1 (j 0)) dstNI))) e1

end Cert.Lib.GraphRows
-- ==== Proof.EdgeScores.lean ====
/-
  The score of an edge, as one function of the argument arrays.

  Four node-feature slices `S 0 … S 3`, each `[50000, 64]`, laid side by side make a node's 256 features; an edge's
  feature row is its source node's 256 features followed by its destination node's, and its score for class `c` is
  that row against row `c` of the weight matrix `W : [32, 512]`, plus the bias `b c`:

    score e c = (Σ_q Σ_l S q (src e, l) · W (c, 64 q + l)) + (Σ_q Σ_l S q (dst e, l) · W (c, 256 + 64 q + l)) + b c

  with `q` over the four slices and `l` over a slice's 64 columns. The node of an edge is the start index a gather
  reads: the index word read signed and clamped into `[0, 49999]` (`node`). The first sum depends on the source
  node only and the second on the destination node only, so each is a per-node quantity (`proj`) that can be
  computed once per node and looked up per edge.
-/
import Idealize.ShloMosaic.PureOps.Ideal
import Idealize.ShloMosaic.Lib.ValueIdx
import proofs.«144986_j90366111908223_2_alg».proof.Proof.ColumnBlocks
import proofs.«144986_j90366111908223_2_alg».proof.Proof.LibGraphRows

noncomputable section

namespace Cert.EdgeScores

open Idealize.ShloMosaic Idealize.ShloMosaic.ValueIdx

/-- The column of start indices a row lookup `x[idx]` is given: a negative index counts from the end (`idx + 50000`),
    any other index is kept, and the vector is laid down a column `[400000, 1]`. The two shape relations are taken as
    hypotheses so that either program's own witnesses fit. -/
def startIdx (h0 : (⟨0, ![]⟩ : Shape).BroadcastsInDim ⟨1, ![400000]⟩ (![] : Fin 0 → Fin 1))
    (h1 : (⟨1, ![400000]⟩ : Shape).BroadcastsInDim ⟨2, ![400000, 1]⟩ (![0] : Fin 1 → Fin 2))
    (x : IVec ⟨1, ![400000]⟩ 32) : IVec ⟨2, ![400000, 1]⟩ 32 :=
  broadcastInDim ⟨2, ![400000, 1]⟩ ![0] h1
    (select (cmpi .slt x (broadcastInDim ⟨1, ![400000]⟩ ![] h0 (constantI ⟨0, ![]⟩ 32 0#32)))
      (addi x (broadcastInDim ⟨1, ![400000]⟩ ![] h0 (constantI ⟨0, ![]⟩ 32 50000#32))) x)

/-- The node edge `e` reads through a column of start indices: the index word read signed, clamped into the rows. -/
def node (I : IVec ⟨2, ![400000, 1]⟩ 32) (e : Fin 400000) : Fin 50000 :=
  Cert.Lib.GraphRows.clampRow (by norm_num) (I (ix2 e (0 : Fin 1)))

/-- Node `n`'s 256 features against half `h` of row `c` of the weights: `h = 0` the source half, `h = 1` the
    destination half. -/
def proj (S : Fin 4 → FVec Ideal ⟨2, ![50000, 64]⟩ .f32) (W : FVec Ideal ⟨2, ![32, 512]⟩ .f32)
    (n : Fin 50000) (h : Fin 2) (c : Fin 32) : EReal :=
  ∑ q : Fin 4, ∑ l : Fin 64, S q (ix2 n l) * W (ix2 c (wcol h q l))

/-- Edge `e`'s score for class `c`. -/
def score (S : Fin 4 → FVec Ideal ⟨2, ![50000, 64]⟩ .f32) (Is Id : IVec ⟨2, ![400000, 1]⟩ 32)
    (W : FVec Ideal ⟨2, ![32, 512]⟩ .f32) (b : FVec Ideal ⟨1, ![32]⟩ .f32) (e : Fin 400000) (c : Fin 32) : EReal :=
  (proj S W (node Is e) 0 c + proj S W (node Id e) 1 c) + b (ix1 c)

/-- The scores as an array `[400000, 32]`. -/
def scores (S : Fin 4 → FVec Ideal ⟨2, ![50000, 64]⟩ .f32) (Is Id : IVec ⟨2, ![400000, 1]⟩ 32)
    (W : FVec Ideal ⟨2, ![32, 512]⟩ .f32) (b : FVec Ideal ⟨1, ![32]⟩ .f32) : FVec Ideal ⟨2, ![400000, 32]⟩ .f32 :=
  fun i => score S Is Id W b (i 0) (i 1)

theorem scores_apply (S : Fin 4 → FVec Ideal ⟨2, ![50000, 64]⟩ .f32) (Is Id : IVec ⟨2, ![400000, 1]⟩ 32)
    (W : FVec Ideal ⟨2, ![32, 512]⟩ .f32) (b : FVec Ideal ⟨1, ![32]⟩ .f32) (e : Fin 400000) (c : Fin 32) :
    scores S Is Id W b (ix2 e c) = score S Is Id W b e c := rfl

end Cert.EdgeScores

end
-- ==== Proof.KernelTail.lean ====
/-
  From the per-node array to the edge scores: the host's operations after the launch.

  After the launch the host cuts the output `[50000, 64]` into its source-side columns 0 … 31 and its destination-side
  columns 32 … 63, looks up the source-side row of each edge's source node and the destination-side row of its
  destination node, adds the two and adds the bias laid along the rows:

    result (e, c) = (P (src e, c) + P (dst e, 32 + c)) + b c.

  With `P` the per-node array `nodeProj S (stacked W)`, `P (n, 32 h + c)` is node `n`'s 256 features against half `h` of
  row `c` of `W` (`proj`), so the result is `Cert.EdgeScores.score`.
-/
import proofs.«144986_j90366111908223_2_alg».proof.Proof.KernelArray
import proofs.«144986_j90366111908223_2_alg».proof.Proof.EdgeScores
import proofs.«144986_j90366111908223_2_alg».proof.Proof.LibGraphRows

noncomputable section

namespace Cert.KernelIdeal.Tail

open Idealize.ShloMosaic Idealize.ShloMosaic.TcCoe Idealize.ShloMosaic.ValueIdx Idealize.SL.Sem
open Cert.KernelIdeal Cert.KernelIdeal.Gen Cert.EdgeScores Cert.KernelIdeal.NodeArray

/-- The start-index column the host computes from an index vector. -/
abbrev idxCol (x : IVec S400000 32) : IVec S400000x1 32 :=
  startIdx Facts₀.bcast_S_S400000 Facts₀.bcast_S400000_S400000x1_0 x

/-- The host's operations after the launch, as one term of the output array, the two index vectors and the bias. -/
def tail (Pa : FVec Ideal S50000x64 .f32) (src dst : IVec S400000 32) (b : FVec Ideal S32 .f32) :
    FVec Ideal S400000x32 .f32 :=
  addf
    (addf
      (Host.gather gather_S50000x32_S400000x1_S400000x32_1_0_n_n_0_1_132
        (extractStridedSlice S50000x32 ![0, 0] Pa Facts₀.slices_S50000x64_S50000x32_0_0) (idxCol src))
      (Host.gather gather_S50000x32_S400000x1_S400000x32_1_0_n_n_0_1_132
        (extractStridedSlice S50000x32 ![0, 32] Pa Facts₀.slices_S50000x64_S50000x32_0_32) (idxCol dst)))
    (broadcastInDim S400000x32 ![0, 1] Facts₀.bcast_S1x32_S400000x32_0_1
      fun i => shapeCast S1x32 b Facts₀.shapeCasts_S32_S1x32 i)

/-- A row lookup in a `[50000, 32]` table at a column of start indices reads the table at the edge's node. -/
theorem gather_row (x : FVec Ideal S50000x32 .f32) (I : IVec S400000x1 32) (e : Fin 400000) (c : Fin 32) :
    Host.gather gather_S50000x32_S400000x1_S400000x32_1_0_n_n_0_1_132 x I (ix2 e c) = x (ix2 (node I e) c) :=
  (Cert.Lib.GraphRows.gather_apply _ x I _).trans
    (congrArg x (Cert.Lib.GraphRows.gatherRows_operandIdx (N := 50000) (E := 400000) (C := 32) (by norm_num)
      gather_S50000x32_S400000x1_S400000x32_1_0_n_n_0_1_132 rfl rfl rfl rfl rfl rfl rfl I e c))

/-- The tail at `(e, c)`: the source node's source-side entry, plus the destination node's destination-side entry,
    plus the bias. -/
theorem tail_apply (Pa : FVec Ideal S50000x64 .f32) (src dst : IVec S400000 32) (b : FVec Ideal S32 .f32)
    (e : Fin 400000) (c : Fin 32) :
    tail Pa src dst b (ix2 e c)
      = (Pa (ix2 (node (idxCol src) e) (ocol 0 c)) + Pa (ix2 (node (idxCol dst) e) (ocol 1 c))) + b (ix1 c) := by
  unfold tail
  refine congrArg₂ (· + ·) (congrArg₂ (· + ·) ?_ ?_) ?_
  · refine (gather_row _ _ e c).trans ?_
    exact extractStridedSlice_apply ![0, 0] Pa Facts₀.slices_S50000x64_S50000x32_0_0 _
      (ix2 (node (idxCol src) e) (ocol 0 c)) (fun a => match a with
        | ⟨0, _⟩ => by show (node (idxCol src) e).val = 0 + (node (idxCol src) e).val; omega
        | ⟨1, _⟩ => by show 32 * 0 + c.val = 0 + c.val; omega)
  · refine (gather_row _ _ e c).trans ?_
    exact extractStridedSlice_apply ![0, 32] Pa Facts₀.slices_S50000x64_S50000x32_0_32 _
      (ix2 (node (idxCol dst) e) (ocol 1 c)) (fun a => match a with
        | ⟨0, _⟩ => by show (node (idxCol dst) e).val = 0 + (node (idxCol dst) e).val; omega
        | ⟨1, _⟩ => by show 32 * 1 + c.val = 32 + c.val; omega)
  · refine (broadcastInDim_apply ![0, 1] Facts₀.bcast_S1x32_S400000x32_0_1 _ (ix2 e c) (ix2 (0 : Fin 1) c)
      (fun a => match a with
        | ⟨0, _⟩ => by show 0 = if (1 : Nat) = 1 then 0 else e.val; rw [if_pos rfl]
        | ⟨1, _⟩ => by show c.val = if (32 : Nat) = 1 then 0 else c.val; rw [if_neg (by decide)])).trans ?_
    exact shapeCast_apply b Facts₀.shapeCasts_S32_S1x32 (ix2 (0 : Fin 1) c) (ix1 c)
      (by rw [Shape.rowMajor_val_one, Shape.rowMajor_val_two]; show c.val = 0 * 32 + c.val; omega)

/-- Column `32 h + c` of the per-node array is the node's features against half `h` of row `c` of `W`. -/
theorem nodeProj_apply (S : Fin 4 → FVec Ideal S50000x64 .f32) (W : FVec Ideal S32x512 .f32)
    (n : Fin 50000) (h : Fin 2) (c : Fin 32) :
    nodeProj S (Weights.stacked W) (ix2 n (ocol h c)) = proj S W n h c :=
  Finset.sum_congr rfl fun q _ => Finset.sum_congr rfl fun l _ =>
    congrArg (S q (ix2 n l) * ·) (Weights.stacked_apply W h q l c)

/-- The tail over the per-node array is the edge scores. -/
theorem tail_scores (S : Fin 4 → FVec Ideal S50000x64 .f32) (W : FVec Ideal S32x512 .f32)
    (src dst : IVec S400000 32) (b : FVec Ideal S32 .f32) :
    tail (nodeProj S (Weights.stacked W)) src dst b = scores S (idxCol src) (idxCol dst) W b := by
  funext i
  obtain ⟨e, c, rfl⟩ : ∃ (e : Fin 400000) (c : Fin 32), i = ix2 e c := ⟨i 0, i 1, eq_ix2 i⟩
  rw [tail_apply, nodeProj_apply, nodeProj_apply]
  rfl

variable (m : (ℓ : Loc nD τ sig) → Buf (Elt Ideal) ℓ) (ρ : Dev nD → PrngReg)

/-- The edge scores of the arrays the program is started with. -/
abbrev result (c : Dev nD) : FVec Ideal S400000x32 .f32 :=
  scores ![m ((c.tc : Thread nD τ).loc main_arg0), m ((c.tc : Thread nD τ).loc main_arg1), m ((c.tc : Thread nD τ).loc main_arg2), m ((c.tc : Thread nD τ).loc main_arg3)]
    (idxCol (m ((c.tc : Thread nD τ).loc main_arg4))) (idxCol (m ((c.tc : Thread nD τ).loc main_arg5))) (m ((c.tc : Thread nD τ).loc main_arg6)) (m ((c.tc : Thread nD τ).loc main_arg7))

set_option maxHeartbeats 4000000 in
/-- What the host's last operation leaves in the result buffer: the tail over the output array after the run and the
    arguments as launched. -/
theorem result_tail (c : Dev nD) :
    Pipeline.afterTail₀ cfgs (dats m) 0 (V0 m) [hostOps1] c main_v25
      = tail ((dats m 0 c).arrAt 5 cfg0.N) (m ((c.tc : Thread nD τ).loc main_arg4)) (m ((c.tc : Thread nD τ).loc main_arg5)) (m ((c.tc : Thread nD τ).loc main_arg7)) := by
  have h5 : Pipeline.withArrays (cfgs 0).spec c (V0 m c) (fun w => (dats m 0 c).arrAt w (cfgs 0).N)
      (Proc.devRef .tc main_v5) = (dats m 0 c).arrAt 5 cfg0.N :=
    Pipeline.withArrays_arr spec0 launch0.win.arr_inj c _ _ 5
  have h4 : Pipeline.withArrays (cfgs 0).spec c (V0 m c) (fun w => (dats m 0 c).arrAt w (cfgs 0).N)
      (Proc.devRef .tc main_arg4) = m ((c.tc : Thread nD τ).loc main_arg4) :=
    (Pipeline.withArrays_of_ne _ c (V0 m c) _ main_arg4
      (by exact (by decide : ∀ w, Pipeline.arrRef spec0 w ≠ main_arg4))).trans (V_main_arg4 m c)
  have h5' : Pipeline.withArrays (cfgs 0).spec c (V0 m c) (fun w => (dats m 0 c).arrAt w (cfgs 0).N)
      (Proc.devRef .tc main_arg5) = m ((c.tc : Thread nD τ).loc main_arg5) :=
    (Pipeline.withArrays_of_ne _ c (V0 m c) _ main_arg5
      (by exact (by decide : ∀ w, Pipeline.arrRef spec0 w ≠ main_arg5))).trans (V_main_arg5 m c)
  have h7 : Pipeline.withArrays (cfgs 0).spec c (V0 m c) (fun w => (dats m 0 c).arrAt w (cfgs 0).N)
      (Proc.devRef .tc main_arg7) = m ((c.tc : Thread nD τ).loc main_arg7) :=
    (Pipeline.withArrays_of_ne _ c (V0 m c) _ main_arg7
      (by exact (by decide : ∀ w, Pipeline.arrRef spec0 w ≠ main_arg7))).trans (V_main_arg7 m c)
  unfold Pipeline.afterTail₀
  show StableHlo.after hostOps1 _ (Proc.devRef .tc main_v25) = _
  after_results_simp
  rw [h5, h4, h5', h7]
  rfl

/-- The result buffer after the run holds the edge scores of the arguments. -/
theorem result_eq (c : Dev nD) :
    Pipeline.afterTail₀ cfgs (dats m) 0 (V0 m) [hostOps1] c main_v25 = result m c := by
  rw [result_tail, final, slices_eq, V_weights]
  exact tail_scores _ _ _ _ _

/-- The kernel's run, read: every weakly fair execution terminates with the result buffer at the edge scores of the
    arguments and the arguments unchanged. -/
theorem run : θ_run defs (onTc (τ := τ) (main (F := Ideal))) ⟨m, fun _ => 0, ρ⟩ fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v25 (Pipeline.mem_restRefs_of main_v25 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Tail

end
-- ==== Proof.RefValue.lean ====
/-
  The reference's result is the edge scores.

  The reference looks up, for every edge, the four slices' rows at the source node and at the destination node, lays
  the eight `[400000, 64]` pieces side by side into the edge's feature row `[400000, 512]` and multiplies by the
  transposed weights, then adds the bias. Column `256 h + 64 q + l` of the feature row is piece `4 h + q` at column `l`:
  slice `q` at the source node (`h = 0`) or the destination node (`h = 1`), a row lookup reading the node the
  start index names, clamped into the rows. The product's sum over the 512 columns, cut into the source half and the
  destination half and each into the four slices' 64 columns, is the two per-node sums of `Cert.EdgeScores.score`.
-/
import proofs.«144986_j90366111908223_2_alg».proof.Proof.Gen.ReferenceIdeal.Read
import proofs.«144986_j90366111908223_2_alg».proof.Proof.EdgeScores

noncomputable section

namespace Cert.ReferenceIdeal.RefValue

open Idealize.ShloMosaic Idealize.ShloMosaic.ValueIdx Cert.ReferenceIdeal Cert.ReferenceIdeal.Read Cert.EdgeScores
open Cert.ReferenceIdeal.Facts₀

/-- The start-index column the reference computes from an index vector (it computes it anew for each lookup). -/
abbrev idxCol (x : IVec S400000 32) : IVec S400000x1 32 :=
  startIdx bcast_S_S400000 bcast_S400000_S400000x1_0 x

/-- A row lookup in a slice at a column of start indices reads the slice at the edge's node. -/
theorem gather_row (x : FVec Ideal S50000x64 .f32) (I : IVec S400000x1 32) (e : Fin 400000) (l : Fin 64) :
    Host.gather gather_S50000x64_S400000x1_S400000x64_1_0_n_n_0_1_164 x I (ix2 e l) = x (ix2 (node I e) l) :=
  (Cert.Lib.GraphRows.gather_apply _ x I _).trans
    (congrArg x (Cert.Lib.GraphRows.gatherRows_operandIdx (N := 50000) (E := 400000) (C := 64) (by norm_num)
      gather_S50000x64_S400000x1_S400000x64_1_0_n_n_0_1_164 rfl rfl rfl rfl rfl rfl rfl I e l))

/-- Eight `[400000, 64]` pieces side by side: column `64 p + l` of the result is column `l` of piece `p`. -/
theorem eightSideBySide {α : Type} (u : Fin 8 → (S400000x64.Idx → α))
    (h : Shape.Concatenates ([⟨S400000x64, u 0⟩, ⟨S400000x64, u 1⟩, ⟨S400000x64, u 2⟩, ⟨S400000x64, u 3⟩,
      ⟨S400000x64, u 4⟩, ⟨S400000x64, u 5⟩, ⟨S400000x64, u 6⟩, ⟨S400000x64, u 7⟩].map
      (fun p : (s : Shape) × (s.Idx → α) => p.1)) S400000x512 1)
    (e : Fin 400000) (p : Fin 8) (l : Fin 64) (k : Fin 512) (hk : k.val = 64 * p.val + l.val) :
    concatenate S400000x512 1 [⟨S400000x64, u 0⟩, ⟨S400000x64, u 1⟩, ⟨S400000x64, u 2⟩, ⟨S400000x64, u 3⟩,
      ⟨S400000x64, u 4⟩, ⟨S400000x64, u 5⟩, ⟨S400000x64, u 6⟩, ⟨S400000x64, u 7⟩] h (ix2 e k) = u p (ix2 e l) :=
  concatenate_ofFn_apply (t := S400000x512) (s₁ := S400000x64) (1 : Fin 2) u h rfl 64 rfl (ix2 e k) p
    (by show k.val / 64 = p.val; omega)
    (ix2 e l) (by show l.val = k.val % 64; omega)
    (fun b hb => match b, hb with
      | ⟨0, _⟩, _ => rfl
      | ⟨1, _⟩, hb => absurd rfl hb)

/-- The edge's feature row at column `256 h + 64 q + l`: slice `q` at the source (`h = 0`) or destination (`h = 1`)
    node, column `l`. -/
theorem features_apply (x0 x1 x2 x3 : FVec Ideal S50000x64 .f32) (x4 x5 : IVec S400000 32)
    (e : Fin 400000) (h : Fin 2) (q : Fin 4) (l : Fin 64) :
    val_main_v56 (F := Ideal) x0 x1 x2 x3 x4 x5 (ix2 e (wcol h q l))
      = (![x0, x1, x2, x3] : Fin 4 → FVec Ideal S50000x64 .f32) q
          (ix2 (node ((![idxCol x4, idxCol x5] : Fin 2 → IVec S400000x1 32) h) e) l) := by
  unfold val_main_v56
  refine (eightSideBySide (![val_main_v6 (F := Ideal) x0 x4, val_main_v13 (F := Ideal) x1 x4, val_main_v20 (F := Ideal) x2 x4, val_main_v27 (F := Ideal) x3 x4, val_main_v34 (F := Ideal) x0 x5, val_main_v41 (F := Ideal) x1 x5, val_main_v48 (F := Ideal) x2 x5, val_main_v55 (F := Ideal) x3 x5] :
      Fin 8 → (S400000x64.Idx → EReal)) _ e ⟨4 * h.val + q.val, by omega⟩ l (wcol h q l)
    (by show 256 * h.val + (64 * q.val + l.val) = 64 * (4 * h.val + q.val) + l.val; omega)).trans ?_
  match h, q with
  | ⟨0, _⟩, ⟨0, _⟩ => exact gather_row x0 _ e l
  | ⟨0, _⟩, ⟨1, _⟩ => exact gather_row x1 _ e l
  | ⟨0, _⟩, ⟨2, _⟩ => exact gather_row x2 _ e l
  | ⟨0, _⟩, ⟨3, _⟩ => exact gather_row x3 _ e l
  | ⟨1, _⟩, ⟨0, _⟩ => exact gather_row x0 _ e l
  | ⟨1, _⟩, ⟨1, _⟩ => exact gather_row x1 _ e l
  | ⟨1, _⟩, ⟨2, _⟩ => exact gather_row x2 _ e l
  | ⟨1, _⟩, ⟨3, _⟩ => exact gather_row x3 _ e l

theorem lidx_eq (e : Fin 400000) (c : Fin 32) (k : Fin 512) : lidx_main_v58 (ix2 e c) k = ix2 e k :=
  funext fun a => match a with | ⟨0, _⟩ => rfl | ⟨1, _⟩ => rfl
theorem ridx_eq (e : Fin 400000) (c : Fin 32) (k : Fin 512) : idx_main_v57 (ridx_main_v58 (ix2 e c) k) = ix2 c k :=
  funext fun a => match a with | ⟨0, _⟩ => rfl | ⟨1, _⟩ => rfl
theorem bidx_eq (e : Fin 400000) (c : Fin 32) : idx_main_v59 (idx_main_v60 (ix2 e c)) = ix1 c :=
  funext fun a => match a with | ⟨0, _⟩ => rfl

/-- The reference's result, entry by entry, is the edge scores of its arguments. -/
theorem ref_scores (x0 x1 x2 x3 : FVec Ideal S50000x64 .f32) (x4 x5 : IVec S400000 32)
    (x6 : FVec Ideal S32x512 .f32) (x7 : FVec Ideal S32 .f32) :
    val_main_v61 (F := Ideal) x0 x1 x2 x3 x4 x5 x6 x7
      = scores ![x0, x1, x2, x3] (idxCol x4) (idxCol x5) x6 x7 := by
  funext i
  obtain ⟨e, c, rfl⟩ : ∃ (e : Fin 400000) (c : Fin 32), i = ix2 e c := ⟨i 0, i 1, eq_ix2 i⟩
  rw [val_main_v61_apply, val_main_v58_apply, val_main_v60_apply, val_main_v59_apply, bidx_eq]
  simp only [lidx_eq, val_main_v57_apply, ridx_eq]
  show (∑ k : Fin 512, val_main_v56 (F := Ideal) x0 x1 x2 x3 x4 x5 (ix2 e k) * x6 (ix2 c k)) + x7 (ix1 c)
    = (proj ![x0, x1, x2, x3] x6 (node (idxCol x4) e) 0 c + proj ![x0, x1, x2, x3] x6 (node (idxCol x5) e) 1 c)
      + x7 (ix1 c)
  refine congrArg (· + x7 (ix1 c)) ?_
  refine (sum_512 _).trans (congrArg₂ (· + ·) ?_ ?_)
  · exact Finset.sum_congr rfl fun q _ => Finset.sum_congr rfl fun l _ =>
      congrArg (· * x6 (ix2 c (wcol 0 q l))) (features_apply x0 x1 x2 x3 x4 x5 e 0 q l)
  · exact Finset.sum_congr rfl fun q _ => Finset.sum_congr rfl fun l _ =>
      congrArg (· * x6 (ix2 c (wcol 1 q l))) (features_apply x0 x1 x2 x3 x4 x5 e 1 q l)

end Cert.ReferenceIdeal.RefValue

end
-- ==== Proof.lean ====
/-
  Edge scores: a per-edge linear layer over looked-up node features, computed per node first.

  The reference looks up, for each of 400000 edges, the four 64-wide feature slices of its source node and of its
  destination node, lays the eight pieces side by side into a 512-wide row and takes `row · Wᵀ + b` with
  `W : [32, 512]`. The kernel uses that the product splits over the two halves of the row: it computes once per node
  the node's 256 features against the source half and against the destination half of every row of `W` — one
  `[50000, 256] × [256, 64]` product, ten row blocks of 5000 on the grid, the weights' two halves stacked and
  transposed by the host beforehand — and then, per edge, looks up the source-side entries of the source node and the
  destination-side entries of the destination node, adds them and adds the bias.

  On the extended reals both are the same function of the arguments (`Cert.EdgeScores.score`):

    (Σ_q Σ_l S q (src e, l) · W (c, 64 q + l)) + (Σ_q Σ_l S q (dst e, l) · W (c, 256 + 64 q + l)) + b c.

  The reference's sum over 512 columns is regrouped into these two sums of four blocks of 64 columns; addition is
  only reassociated, so no finiteness of the inputs is used. Both programs read a node through the same start index
  (a negative index counts from the end, the lookup clamps into the 50000 rows), and the changes of float format in
  the kernel are the identity on extended reals. The idealization rewrote nothing, so `preserves` is trivial; the
  three frames are the generated ones (the reference's is its generated run with the result dropped).
-/
import proofs.«144986_j90366111908223_2_alg».proof.Defs
import proofs.«144986_j90366111908223_2_alg».proof.Proof.Gen.Kernel
import proofs.«144986_j90366111908223_2_alg».proof.Proof.Gen.Kernel.Skeleton
import proofs.«144986_j90366111908223_2_alg».proof.Proof.Gen.Kernel.Launch
import proofs.«144986_j90366111908223_2_alg».proof.Proof.Gen.Kernel.Points
import proofs.«144986_j90366111908223_2_alg».proof.Proof.Gen.Kernel.Frame
import proofs.«144986_j90366111908223_2_alg».proof.Proof.Gen.KernelIdeal
import proofs.«144986_j90366111908223_2_alg».proof.Proof.Gen.KernelIdeal.Skeleton
import proofs.«144986_j90366111908223_2_alg».proof.Proof.Gen.KernelIdeal.Launch
import proofs.«144986_j90366111908223_2_alg».proof.Proof.Gen.KernelIdeal.Points
import proofs.«144986_j90366111908223_2_alg».proof.Proof.Gen.KernelIdeal.Frame
import proofs.«144986_j90366111908223_2_alg».proof.Proof.Gen.ReferenceIdeal
import proofs.«144986_j90366111908223_2_alg».proof.Proof.Gen.Pre_finite_inputs
import proofs.«144986_j90366111908223_2_alg».proof.Proof.Gen.ReferenceIdeal.Run
import proofs.«144986_j90366111908223_2_alg».proof.Proof.Gen.ReferenceIdeal.Read
import proofs.«144986_j90366111908223_2_alg».proof.Proof.KernelTail
import proofs.«144986_j90366111908223_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- Both programs end with the edge scores of their arguments, and the arguments agree. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.ReferenceIdeal.RefValue.ref_scores]
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
